-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16384x2048 .f32) (main_arg1 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_cst_2 : FVec F S_ .f32 := constant S_ .f32 0x00000000#32
  let main_v9 : FVec F S16384x2048 .f32 := broadcastInDim S16384x2048 ![] bcast_S_S16384x2048 main_cst_2
  let main_v10 : IVec S16384x2048 1 := cmpf .ogt main_arg0 main_v9
  let main_c_3 : IVec S_ 1 := constantI S_ 1 1#1
  let main_v11 : IVec S_ 1 := (fun x v => Host.reduce IntOp.andi x v reducesTo_S16384x2048_S_d0_1 h_S_) main_v10 main_c_3
  let main_v12 : IVec S_ 1 := andi main_v8 main_v11
  let main_cst_4 : FVec F S_ .f32 := constant S_ .f32 0x00000000#32
  let main_v13 : FVec F S16384x2048 .f32 := broadcastInDim S16384x2048 ![] bcast_S_S16384x2048 main_cst_4
  let main_v14 : IVec S16384x2048 1 := cmpf .ogt main_arg1 main_v13
  let main_c_5 : IVec S_ 1 := constantI S_ 1 1#1
  let main_v15 : IVec S_ 1 := (fun x v => Host.reduce IntOp.andi x v reducesTo_S16384x2048_S_d0_1 h_S_) main_v14 main_c_5
  fn_part1 (F := F) main_v12 main_v15
-- ==== Kernel.lean ====
abbrev S16384x2048 : Shape := ⟨2, ![16384, 2048]⟩
abbrev S2x8x128 : Shape := ⟨3, ![2, 8, 128]⟩
abbrev S1024x2048 : Shape := ⟨2, ![1024, 2048]⟩
abbrev S1x8x128 : Shape := ⟨3, ![1, 8, 128]⟩
abbrev S1x2048 : Shape := ⟨2, ![1, 2048]⟩
abbrev S2048 : Shape := ⟨1, ![2048]⟩
abbrev S1x1x2048 : Shape := ⟨3, ![1, 1, 2048]⟩
abbrev S1 : Shape := ⟨1, ![1]⟩
abbrev S1x1x1 : Shape := ⟨3, ![1, 1, 1]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2x8x128, .f32⟩
  | .hbm, ⟨3, _⟩ => ⟨S1x1x1, .f32⟩
  | .hbm, ⟨4, _⟩ => ⟨S_, .f32⟩
  | .hbm, ⟨5, _⟩ => ⟨S1x1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S1x8x128, .f32⟩
  | .local _ .vmem, ⟨5, _⟩ => ⟨S1x8x128, .f32⟩
  | .local _ .vmem, ⟨6, _⟩ => ⟨S1x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_11 : BitVec 32 := 0#32
  let v28 : BitVec 1 := Scalar.cmpi .ne v27 c0_i32_11
  v28

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x2048_S1024x2048_0_0 : ∀ a, (![0, 0] : Fin 2 → Nat) a + S1024x2048.size a ≤ S1024x2048.size a
  h_S1024x2048 : 0 < S1024x2048.numel
  reduces_S1024x2048_S2048 : S1024x2048.Reduces [0] S2048
  shapeCasts_S2048_S1x2048 : S2048.ShapeCasts S1x2048
  iota_S1x2048_d1_w32 : S1x2048.Iotas .tc 32 [1]
  shapeCasts_S1x2048_S1x1x2048 : S1x2048.ShapeCasts S1x1x2048
  reduces_S1x1x2048_S1 : S1x1x2048.Reduces [1, 2] S1
  shapeCasts_S1_S1x1x1 : S1.ShapeCasts S1x1x1
  inpos_S1x1x1_p0_0_0 : ∀ a, (![0, 0, 0] : Fin 3 → Nat) a < S1x1x1.size a
  inb_S1x8x128_S1x8x128_0_0_0 : ∀ a, (![0, 0, 0] : Fin 3 → Nat) a + S1x8x128.size a ≤ S1x8x128.size a
  h_S1x8x128 : 0 < S1x8x128.numel
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x2048.size a
  hwx0_1 : ∀ i : grid0.Coords, EltTy.bits .f32 = 32 ∨ (Rect.block (s := S16384x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x2048 : Shape := ⟨2, ![16384, 2048]⟩
abbrev S_ : Shape := ⟨0, ![]⟩
abbrev S2048 : Shape := ⟨1, ![2048]⟩
abbrev S1x2048 : Shape := ⟨2, ![1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S_, .f32⟩
  | .hbm, ⟨4, _⟩ => ⟨S16384x2048, .f32⟩
  | .hbm, ⟨5, _⟩ => ⟨S16384x2048, .f32⟩
  | .hbm, ⟨6, _⟩ => ⟨S_, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  bcast_S_S16384x2048 : S_.BroadcastsInDim S16384x2048 (![] : Fin 0 → Fin S16384x2048.rank)
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  reducesTo_S16384x2048_S_d0_1 : S16384x2048.ReducesTo [0, 1] S_
  h_S_ : 0 < S_.numel

variable [Facts₀]

class Facts : Prop extends Facts₀ where

variable [Facts]
-- ==== Proof.Pieces.lean ====
/-
  What one grid step leaves behind, as values. The kernel body has three shapes over the sixteen steps:
  the first step of a half zeroes the column accumulator and then adds the block's column sums to it; a middle
  step adds the block's column sums to what the step before left; the last step of a half does the same and
  then writes the weighted, summed accumulator into the output block. Each store writes its whole buffer, so
  what a buffer holds afterwards is the last store's value, and a load after a store reads that value back.
-/
import proofs.«119029_j79130477461938_2_alg».proof.Proof.Gen.KernelIdeal.Frame
import Idealize.ShloMosaic.Lib.Pipeline.Value
import Idealize.ShloMosaic.Lib.Tactic

noncomputable section

namespace Cert.KernelIdeal.KVal

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First step of a half: the accumulator ends at the zero row plus the block's column sums. -/
theorem scratch_first (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x8x128 .f32) (harg4 : arg4.IsWhole) (arg5 : Memref sig .tc .vmem S1x2048 .f32) (harg5 : arg5.IsWhole) (hc0 : cond0_0 i) (hc1 : ¬cond0_1 i)
    (x0 : Vec F S1024x2048 .f32) (x1 : Vec F S1024x2048 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x2048) hz2, View.readCov_unit_zero (S := S1x2048) _ hz2]
  simp only [View.readAt_eq_ld, harg2.read_unread, harg3.read_unread,
    View.ld_unit_zero (S := S1024x2048) hz2]

/-- A middle step: the accumulator ends at what it held plus the block's column sums. -/
theorem scratch_middle (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x8x128 .f32) (harg4 : arg4.IsWhole) (arg5 : Memref sig .tc .vmem S1x2048 .f32) (harg5 : arg5.IsWhole) (hc0 : ¬cond0_0 i) (hc1 : ¬cond0_1 i)
    (x0 : Vec F S1024x2048 .f32) (x1 : Vec F S1024x2048 .f32) (xs0 : Vec F S1x2048 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread,
    View.ld_unit_zero (S := S1024x2048) hz2, View.ld_unit_zero (S := S1x2048) hz2]

/-- Last step of a half: the accumulator likewise, -/
theorem scratch_last (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x8x128 .f32) (harg4 : arg4.IsWhole) (arg5 : Memref sig .tc .vmem S1x2048 .f32) (harg5 : arg5.IsWhole) (hc0 : ¬cond0_0 i) (hc1 : cond0_1 i)
    (x0 : Vec F S1024x2048 .f32) (x1 : Vec F S1024x2048 .f32) (xs0 : Vec F S1x2048 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S1024x2048) hz2, View.ld_unit_zero (S := S1x2048) hz2]

/-- and the output block holds the weighted sum of that accumulator, spread over the block. -/
theorem out_last (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1x8x128 .f32) (harg4 : arg4.IsWhole) (arg5 : Memref sig .tc .vmem S1x2048 .f32) (harg5 : arg5.IsWhole) (hc0 : ¬cond0_0 i) (hc1 : cond0_1 i)
    (x0 : Vec F S1024x2048 .f32) (x1 : Vec F S1024x2048 .f32) (xs0 : Vec F S1x2048 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S1x2048) _ hz2]
  simp only [View.readAt_eq_ld, harg2.read_unread, harg3.read_unread, harg5.read_unread,
    View.ld_unit_zero (S := S1024x2048) hz2, View.ld_unit_zero (S := S1x2048) hz2]

end Cert.KernelIdeal.KVal

end
-- ==== Proof.Integrand.lean ====
/-
  The pointwise law. With `m = h · ((d + d') + ε)`, the integrand written with quotients,
  `h · (d · log (d / m) + d' · log (d' / m))`, and the one written with differences of logarithms,
  `h · (d · (log d − log m) + d' · (log d' − log m))`, are the same extended real whenever `d` and `d'`
  are positive reals (`h > 0`, `ε ≥ 0` real): then `m` is a positive real, both quotients are positive
  reals, and `log (x / m) = log x − log m` is the real logarithm's law. Outside that domain the two differ
  (for `d > 0 > m` the quotient's logarithm is `⊥` while `log d − log m` is `⊤`), which is why positivity
  is assumed.
-/
import Idealize.ShloMosaic.PureOps.Ideal
import Mathlib.Analysis.SpecialFunctions.Log.Basic

noncomputable section

namespace Cert.Cjs

open Idealize.ShloMosaic

/-- The integrand with the logarithm of a quotient. -/
def integrandDiv (h ε d d' : EReal) : EReal :=
  h * (d * Ideal.log (Ideal.div d (h * ((d + d') + ε))) + d' * Ideal.log (Ideal.div d' (h * ((d + d') + ε))))

/-- The integrand with a difference of logarithms. -/
def integrandSub (h ε d d' : EReal) : EReal :=
  h * (d * (Ideal.log d - Ideal.log (h * ((d + d') + ε))) + d' * (Ideal.log d' - Ideal.log (h * ((d + d') + ε))))

/-- For a positive real `x` and a positive real `m`: `log (x / m) = log x − log m` on the extended reals. -/
theorem log_div_pos {x m : ℝ} (hx : 0 < x) (hm : 0 < m) :
    Ideal.log (Ideal.div (x : EReal) (m : EReal)) = Ideal.log (x : EReal) - Ideal.log (m : EReal) := by
  rw [Ideal.div_coe hm.ne', ← EReal.coe_mul]
  have hq : 0 < x * (1 / m) := by positivity
  rw [Ideal.log_coe, Ideal.log_coe, Ideal.log_coe, if_neg (not_le.mpr hq), if_neg (not_le.mpr hx),
    if_neg (not_le.mpr hm), ← EReal.coe_sub]
  congr 1
  rw [Real.log_mul hx.ne' (by positivity), one_div, Real.log_inv]; ring

/-- The two integrands agree at positive reals. -/
theorem integrand_eq {h ε d d' : ℝ} (hh : 0 < h) (hε : 0 ≤ ε) (hd : 0 < d) (hd' : 0 < d') :
    integrandDiv (h : EReal) (ε : EReal) (d : EReal) (d' : EReal)
      = integrandSub (h : EReal) (ε : EReal) (d : EReal) (d' : EReal) := by
  have hm : 0 < h * ((d + d') + ε) := by positivity
  have e1 : ((h : EReal) * (((d : EReal) + (d' : EReal)) + (ε : EReal))) = ((h * ((d + d') + ε) : ℝ) : EReal) := by
    push_cast; rfl
  unfold integrandDiv integrandSub
  rw [e1, log_div_pos hd hm, log_div_pos hd' hm]

end Cert.Cjs

end
-- ==== Proof.Weights.lean ====
/-
  The column weight. Column `c` of the 2048 columns carries the weight `2048 − c`: both programs compute it as
  the 32-bit word `2048 − c` read as a signed integer and converted exactly, so it is a real number, and since
  `c < 2048` it is not negative — which is what lets it move across a sum of extended reals.
-/
import Idealize.ShloMosaic.PureOps
import Idealize.ShloMosaic.PureOps.Ideal
import Idealize.ShloMosaic.Lib.ValueIdx

noncomputable section

namespace Cert.Cjs

open Idealize.ShloMosaic Idealize.ShloMosaic.ValueIdx

/-- The weight of column `c`: the word `2048 − c`, read signed. -/
def wt (c : Fin 2048) : ℝ := ((2048#32 - BitVec.ofNat 32 c.val).toInt : ℝ)

/-- It is not negative: `c < 2048`, so the word `2048 − c` is a small positive number. -/
theorem wt_nonneg (c : Fin 2048) : 0 ≤ wt c := by
  unfold wt
  have h : 0 ≤ (2048#32 - BitVec.ofNat 32 c.val).toInt := by
    have hc := c.isLt
    rw [BitVec.toInt_eq_toNat_cond]
    simp only [BitVec.toNat_sub, BitVec.toNat_ofNat]
    split <;> omega
  exact_mod_cast h

/-- The kernel's weight row `(2048 − iota)` converted to float, at column `c`. -/
theorem kernel_weight (h : (⟨2, ![1, 2048]⟩ : Shape).Iotas .tc 32 [1]) (u : Fin 1) (c : Fin 2048) :
    (sitofp .f32 (subi (broadcast (⟨2, ![1, 2048]⟩ : Shape) (2048#32 : BitVec 32)) (iota .tc (⟨2, ![1, 2048]⟩ : Shape) 32 [1] h))
      : FVec Ideal (⟨2, ![1, 2048]⟩ : Shape) .f32) (ix2 u c) = ((wt c : ℝ) : EReal) := by
  show (((2048#32 - BitVec.ofNat 32 (0 * 2048 + c.val)).toInt : ℝ) : EReal) = _
  rw [Nat.zero_mul, Nat.zero_add]; rfl

/-- The reference's weight `2048 − arange` converted to float, at column `c`. -/
theorem host_weight (c : Fin 2048) :
    FloatOps.sitofp (F := Ideal) .f32 (IntOp.subi (2048#32 : BitVec 32) (BitVec.ofNat 32 c.val)) = ((wt c : ℝ) : EReal) := rfl

end Cert.Cjs

end
-- ==== Proof.Consts.lean ====
/-
  The two float words the integrand spells, as the extended reals they denote: the factor one half, and the
  small positive shift added to `D + D_pred` before halving. Only their being real, and their signs, matter:
  the same words stand on both sides.
-/
import Idealize.ShloMosaic.PureOps.Ideal

noncomputable section

namespace Cert.Cjs

open Idealize.ShloMosaic

/-- The word `0x3F000000` denotes the real one half. -/
theorem ofBits_half : Ideal.ofBits .f32 0x3F000000#32 = ((1 / 2 : ℝ) : EReal) := by
  simp [Ideal.ofBits, Ideal.ieee, -EReal.coe_mul]; norm_num

/-- The word `0x322BCC77` (the nearest float to `1e-8`) denotes the dyadic `11258999 / 2^50`. -/
theorem ofBits_eps : Ideal.ofBits .f32 0x322BCC77#32 = ((11258999 / 1125899906842624 : ℝ) : EReal) := by
  simp [Ideal.ofBits, Ideal.ieee, -EReal.coe_mul]; norm_num

end Cert.Cjs

end
-- ==== Proof.Spec.lean ====
/-
  The specification: what both programs compute, as one function of the two input arrays.

    total f X Y = ( Σ over rows R and columns c of  f (X R c) (Y R c) · (2048 − c) ) / 16384

  on the extended reals, `f` the pointwise integrand. The kernel computes it with the quotient form of the
  integrand, the reference with the difference form; at positive real entries the two forms agree, so the
  totals do.
-/
import proofs.«119029_j79130477461938_2_alg».proof.Proof.Integrand
import proofs.«119029_j79130477461938_2_alg».proof.Proof.Weights
import proofs.«119029_j79130477461938_2_alg».proof.Proof.Consts

noncomputable section

namespace Cert.Cjs

open Idealize.ShloMosaic

/-- The word for one half. -/
abbrev halfW : EReal := Ideal.ofBits .f32 0x3F000000#32
/-- The word for the small shift. -/
abbrev epsW : EReal := Ideal.ofBits .f32 0x322BCC77#32
/-- The word for the row count 16384, the final divisor. -/
abbrev rowsW : EReal := Ideal.ofBits .f32 0x46800000#32

/-- The weighted total of an integrand `f` over all rows and columns, divided by the row count. -/
def total (f : EReal → EReal → EReal) (X Y : Fin 16384 → Fin 2048 → EReal) : EReal :=
  Ideal.div (∑ R : Fin 16384, ∑ c : Fin 2048, f (X R c) (Y R c) * ((wt c : ℝ) : EReal)) rowsW

/-- At positive real entries the quotient form and the difference form give the same total. -/
theorem total_div_eq_sub (X Y : Fin 16384 → Fin 2048 → EReal)
    (hX : ∀ R c, ∃ x : ℝ, 0 < x ∧ X R c = (x : EReal)) (hY : ∀ R c, ∃ y : ℝ, 0 < y ∧ Y R c = (y : EReal)) :
    total (integrandDiv halfW epsW) X Y = total (integrandSub halfW epsW) X Y := by
  unfold total
  refine congrArg (fun s => Ideal.div s rowsW) (Finset.sum_congr rfl fun R _ => Finset.sum_congr rfl fun c _ => ?_)
  obtain ⟨x, hx, ex⟩ := hX R c
  obtain ⟨y, hy, ey⟩ := hY R c
  rw [ex, ey, show halfW = ((1 / 2 : ℝ) : EReal) from ofBits_half,
    show epsW = ((11258999 / 1125899906842624 : ℝ) : EReal) from ofBits_eps,
    integrand_eq (by norm_num) (by norm_num) hx hy]

end Cert.Cjs

end
-- ==== Proof.Payloads.lean ====
/-
  The three stored values of the kernel body, read at an index on the extended reals.

  * the zero row is `0` at every column;
  * the accumulator update at column `c` is what the accumulator held there plus the sum, over the block's 1024
    rows, of the quotient-form integrand of the two input blocks at (row, `c`);
  * the output block holds, at every position, the sum over the 2048 columns of the accumulator times the
    column's weight.
-/
import proofs.«119029_j79130477461938_2_alg».proof.Proof.Gen.KernelIdeal.Skeleton
import proofs.«119029_j79130477461938_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Cert.KernelIdeal Cert.KernelIdeal.Gen
open Idealize.ShloMosaic Idealize.ShloMosaic.ValueIdx Cert.Cjs

/-- The zero row. -/
theorem zero_row_at (u : Fin 1) (col : Fin 2048) : (k0_pay1 (F := Ideal)) (ix2 u col) = 0 := by
  unfold k0_pay1
  refine (congrFun (shapeCast_self _ _) _).trans ?_
  exact Ideal.ofBits_zero_f32

/-- Summing a [1024, 2048] block over its rows: the index that row `r` inserts above column `col` is `(r, col)`. -/
theorem lift_col (h : S1024x2048.Reduces [0] S2048) (col : Fin 2048) (r : Fin 1024) :
    h.lift (ix1 col) r = ix2 r col := by
  funext a; apply Fin.ext
  match a with
  | ⟨0, _⟩ => rfl
  | ⟨1, _⟩ => rfl

/-- A block's column sums at column `col`. -/
theorem colsum_at (v : FVec Ideal S1024x2048 .f32) (h : S1024x2048.Reduces [0] S2048) (hφ : FKind.Formats .f32)
    (hacc : (0x00000000#32 : BitVec 32) = FKind.add.neutral .f32 hφ) (col : Fin 2048) :
    multiReduction .add [0] S2048 v 0x00000000#32 h hφ hacc (ix1 col) = ∑ r : Fin 1024, v (ix2 r col) :=
  (Ideal.multiReduction_add_single v _ h hφ hacc (ix1 col)).trans
    (Finset.sum_congr rfl fun r _ => congrArg v (lift_col h col r))

/-- The accumulator update at column `col`. -/
theorem acc_update_at (x0 x1 : Vec Ideal S1024x2048 .f32) (a : Vec Ideal S1x2048 .f32) (u : Fin 1) (col : Fin 2048) :
    k0_pay2 x0 x1 a (ix2 u col)
      = a (ix2 u col) + ∑ r : Fin 1024, integrandDiv halfW epsW (x0 (ix2 r col)) (x1 (ix2 r col)) := by
  unfold k0_pay2
  refine (congrFun (shapeCast_self _ _) _).trans ?_
  refine (addf_apply _ _ _).trans ?_
  refine congrArg (a (ix2 u col) + ·) ?_
  refine (shapeCast_a_1a_apply _ _ u col).trans ?_
  refine (colsum_at _ _ _ _ col).trans ?_
  exact Finset.sum_congr rfl fun r _ => rfl

/-- The indices of a [1, 1, 2048] array are its columns. -/
def colEquiv : (⟨3, ![1, 1, 2048]⟩ : Shape).Idx ≃ Fin 2048 where
  toFun i := i 2
  invFun col := ix3 (0 : Fin 1) (0 : Fin 1) col
  left_inv i := by
    funext a; apply Fin.ext
    match a with
    | ⟨0, _⟩ => have h : (i 0).val < 1 := (i 0).isLt; show 0 = (i 0).val; omega
    | ⟨1, _⟩ => have h : (i 1).val < 1 := (i 1).isLt; show 0 = (i 1).val; omega
    | ⟨2, _⟩ => rfl
  right_inv _ := rfl

theorem sum_cols {M : Type*} [AddCommMonoid M] (f : (⟨3, ![1, 1, 2048]⟩ : Shape).Idx → M) :
    ∑ i, f i = ∑ col : Fin 2048, f (ix3 (0 : Fin 1) (0 : Fin 1) col) := by
  rw [← Equiv.sum_comp colEquiv.symm f]; rfl

/-- Summing a [1, 1, 2048] array over its last two axes: the sum over the columns, at whatever index it is read. -/
theorem total_at (v : FVec Ideal S1x1x2048 .f32) (h : S1x1x2048.Reduces [1, 2] S1) (hφ : FKind.Formats .f32)
    (hacc : (0x00000000#32 : BitVec 32) = FKind.add.neutral .f32 hφ) (j : S1.Idx) :
    multiReduction .add [1, 2] S1 v 0x00000000#32 h hφ hacc j = ∑ col : Fin 2048, v (ix3 (0 : Fin 1) (0 : Fin 1) col) :=
  (Ideal.multiReduction_add_total v _ h (fun b => by match b with | ⟨0, _⟩ => rfl) hφ hacc j).trans (sum_cols v)

/-- A shape cast read at an index is the operand at the re-laid index. -/
theorem shapeCast_eq {s t : Shape} {α : Type} (x : s.Idx → α) (h : s.ShapeCasts t) (j : t.Idx) :
    shapeCast t x h j = x (Shape.reshapeEquiv h j) := rfl

/-- The output block, at any position: the weighted sum of the accumulator row over the columns. -/
theorem out_block_at (a : Vec Ideal S1x2048 .f32) (j : S1x8x128.Idx) :
    k0_pay3 a j = ∑ col : Fin 2048, a (ix2 (0 : Fin 1) col) * ((wt col : ℝ) : EReal) := by
  unfold k0_pay3
  refine (broadcast_apply _ j).trans ?_
  unfold extractAt
  refine (shapeCast_eq _ _ _).trans ?_
  refine (total_at _ _ _ _ _).trans ?_
  refine Finset.sum_congr rfl fun col _ => ?_
  refine (shapeCast_ab_1ab_apply _ _ (0 : Fin 1) (0 : Fin 1) col).trans ?_
  refine (mulf_apply _ _ _).trans ?_
  exact congrArg (a (ix2 (0 : Fin 1) col) * ·) (kernel_weight _ (0 : Fin 1) col)

end Cert.KernelIdeal.KVal

end
-- ==== Proof.LibNonnegDistrib.lean ====
/-
  Multiplication by a NON-NEGATIVE REAL distributes over addition and over finite sums on the extended reals.

  On `EReal` the product does not distribute over the sum in general (`⊤ + ⊥ = ⊥`, and a negative factor turns the
  summands around), but a factor `x` that is a coerced real with `0 ≤ x` does: it is neither `⊤` nor `⊥`, it keeps
  the sign of every summand, and `0 * _ = 0`. Nothing is assumed of the summands: they may be `⊤` or `⊥`.
-/
import Mathlib.Data.EReal.Operations
import Mathlib.Algebra.BigOperators.Group.Finset.Basic

namespace Cert.Lib

/-- `x * (a + b) = x * a + x * b` for a real `x ≥ 0` and any extended reals `a`, `b`. -/
theorem coe_nonneg_mul_add {x : ℝ} (hx : 0 ≤ x) (a b : EReal) :
    (x : EReal) * (a + b) = (x : EReal) * a + (x : EReal) * b :=
  EReal.left_distrib_of_nonneg_of_ne_top (EReal.coe_nonneg.mpr hx) (EReal.coe_ne_top x) a b

/-- `x * ∑ f = ∑ x * f` over a finite set, for a real `x ≥ 0` and any extended reals `f j`. -/
theorem coe_nonneg_mul_sum {ι : Type*} {x : ℝ} (hx : 0 ≤ x) (s : Finset ι) (f : ι → EReal) :
    (x : EReal) * ∑ j ∈ s, f j = ∑ j ∈ s, (x : EReal) * f j := by
  classical
  induction s using Finset.induction_on with
  | empty => simp
  | insert a s ha ih => rw [Finset.sum_insert ha, Finset.sum_insert ha, coe_nonneg_mul_add hx, ih]

end Cert.Lib
-- ==== Proof.SumLaw.lean ====
/-
  The summation law, on the extended reals with nothing assumed finite.

  The 16384 rows are cut into 16 blocks of 1024 rows. A running column accumulator is reset at the first
  block of each half (blocks 0 and 8) and then adds each block's column sums; after the last block of a half
  (blocks 7 and 15) it is weighted column by column and summed. The two halves' totals added are the weighted
  sum over every row and column: addition on the extended reals is commutative and associative whatever the
  summands, and a weight that is a NON-NEGATIVE REAL moves across a sum.
-/
import Mathlib
import proofs.«119029_j79130477461938_2_alg».proof.Proof.LibNonnegDistrib

noncomputable section

namespace Cert.Cjs

open Finset

/-- Row `r` of block `t`. -/
def rowOf (t : Fin 16) (r : Fin 1024) : Fin 16384 := ⟨t.val * 1024 + r.val, by omega⟩

variable (e : Fin 16384 → Fin 2048 → EReal)

/-- The column sums of block `t`. -/
def colSum (t : Fin 16) (c : Fin 2048) : EReal := ∑ r : Fin 1024, e (rowOf t r) c

/-- The same at a natural block number (zero past the last block). -/
def colSumN (k : ℕ) (c : Fin 2048) : EReal := if h : k < 16 then colSum e ⟨k, h⟩ c else 0

theorem colSumN_of_lt {k : ℕ} (h : k < 16) (c : Fin 2048) : colSumN e k c = colSum e ⟨k, h⟩ c := dif_pos h

/-- The accumulator after block `n`: the column sums of the blocks of `n`'s half up to `n`. -/
def accUpTo (n : ℕ) (c : Fin 2048) : EReal := ∑ k ∈ Icc (n / 8 * 8) n, colSumN e k c

/-- At the first block of a half the accumulator is that block's column sums. -/
theorem accUpTo_first {n : ℕ} (h : n % 8 = 0) (c : Fin 2048) : accUpTo e n c = colSumN e n c := by
  unfold accUpTo
  rw [show n / 8 * 8 = n by omega, Icc_self, sum_singleton]

/-- At any other block it is the accumulator before plus that block's column sums. -/
theorem accUpTo_next {n : ℕ} (h : n % 8 ≠ 0) (c : Fin 2048) :
    accUpTo e n c = accUpTo e (n - 1) c + colSumN e n c := by
  unfold accUpTo
  obtain ⟨k, rfl⟩ : ∃ k, n = k + 1 := ⟨n - 1, by omega⟩
  rw [show (k + 1) / 8 * 8 = k / 8 * 8 by omega, Nat.add_sub_cancel,
    sum_Icc_succ_top (by omega : k / 8 * 8 ≤ k + 1)]

/-- The rows are the blocks' rows. -/
theorem sum_rows {M : Type*} [AddCommMonoid M] (F : Fin 16384 → M) :
    ∑ R : Fin 16384, F R = ∑ t : Fin 16, ∑ r : Fin 1024, F (rowOf t r) := by
  rw [← (finProdFinEquiv : Fin 16 × Fin 1024 ≃ Fin 16384).sum_comp, Fintype.sum_prod_type]
  refine sum_congr rfl fun t _ => sum_congr rfl fun r _ => congrArg F (Fin.ext ?_)
  show (finProdFinEquiv (t, r) : Fin (16 * 1024)).val = t.val * 1024 + r.val
  rw [finProdFinEquiv_apply_val]
  show r.val + 1024 * t.val = t.val * 1024 + r.val
  omega

/-- The two halves' accumulators together hold every block's column sums. -/
theorem acc_halves (c : Fin 2048) : accUpTo e 7 c + accUpTo e 15 c = ∑ t : Fin 16, colSum e t c := by
  unfold accUpTo
  rw [show (7 : ℕ) / 8 * 8 = 0 by norm_num, show (15 : ℕ) / 8 * 8 = 8 by norm_num,
    ← sum_union (by decide : Disjoint (Icc 0 7) (Icc 8 15)),
    show Icc 0 7 ∪ Icc 8 15 = range 16 by decide, sum_range]
  exact sum_congr rfl fun t _ => colSumN_of_lt e t.isLt c

/-- THE LAW: the two halves' weighted accumulator totals are the weighted sum over all rows and columns. -/
theorem weighted_total (w : Fin 2048 → ℝ) (hw : ∀ c, 0 ≤ w c) :
    (∑ c : Fin 2048, accUpTo e 7 c * (w c : EReal)) + (∑ c : Fin 2048, accUpTo e 15 c * (w c : EReal))
      = ∑ R : Fin 16384, ∑ c : Fin 2048, e R c * (w c : EReal) := by
  rw [← sum_add_distrib, sum_comm]
  refine sum_congr rfl fun c _ => ?_
  rw [sum_rows (fun R => e R c * (w c : EReal)), mul_comm (accUpTo e 7 c), mul_comm (accUpTo e 15 c),
    ← Cert.Lib.coe_nonneg_mul_add (hw c), acc_halves, Cert.Lib.coe_nonneg_mul_sum (hw c)]
  refine sum_congr rfl fun t _ => ?_
  unfold colSum
  rw [Cert.Lib.coe_nonneg_mul_sum (hw c)]
  exact sum_congr rfl fun r _ => mul_comm _ _

end Cert.Cjs

end
-- ==== Proof.Accumulate.lean ====
/-
  The accumulator across the sixteen grid steps. Step `t` reads rows `1024 t … 1024 t + 1023` of both
  inputs. By induction on the step, the accumulator after step `t` holds, at column `c`, the sum of the
  quotient-form integrand over the rows of the blocks of `t`'s half up to `t`; and at the last step of a half
  the output block holds that accumulator's weighted sum over the columns.
-/
import proofs.«119029_j79130477461938_2_alg».proof.Proof.Pieces
import proofs.«119029_j79130477461938_2_alg».proof.Proof.Payloads
import proofs.«119029_j79130477461938_2_alg».proof.Proof.SumLaw

noncomputable section

namespace Cert.KernelIdeal.KVal

open Cert.KernelIdeal Cert.KernelIdeal.Gen
open Idealize.ShloMosaic Idealize.ShloMosaic.TcCoe Idealize.SL.Sem
open Idealize.ShloMosaic.ValueIdx Cert.Cjs

variable (m : (ℓ : Loc nD τ sig) → Buf (Elt Ideal) ℓ) (ρ : Dev nD → PrngReg)

/-- The first input, by row and column. -/
def argD (c : Dev nD) (R : Fin 16384) (col : Fin 2048) : EReal :=
  (m ((c : Thread nD τ).loc main_arg0) : S16384x2048.Idx → Ideal .f32) (ix2 R col)
/-- The second input, by row and column. -/
def argP (c : Dev nD) (R : Fin 16384) (col : Fin 2048) : EReal :=
  (m ((c : Thread nD τ).loc main_arg1) : S16384x2048.Idx → Ideal .f32) (ix2 R col)
/-- The quotient-form integrand of the two inputs, by row and column. -/
def eDiv (c : Dev nD) (R : Fin 16384) (col : Fin 2048) : EReal :=
  integrandDiv halfW epsW (argD m c R col) (argP m c R col)

/-- Both input windows are at block row `t`, block column 0, at step `t`. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Step `t`'s block of the first input is rows `1024 t + r` of it. -/
theorem block0_at (c : Dev nD) (t : Fin cfg0.N) (ht : t.val < 16) (r : Fin 1024) (col : Fin 2048) :
    (iblk m c 0 t : Vec Ideal S1024x2048 .f32) (ix2 r col) = argD m c (rowOf ⟨t.val, ht⟩ r) col := by
  obtain ⟨e0, e1, -, -⟩ := idx_in t
  unfold iblk argD
  rw [View.read_apply]
  show V m c main_arg0 _ = m (c.tc.loc main_arg0) _
  unfold V
  congr 1
  funext a
  apply Fin.ext
  match a with
  | ⟨0, _⟩ => show win0_0.index t 0 * 1024 + 1 * r.val = t.val * 1024 + r.val; rw [e0]; omega
  | ⟨1, _⟩ => show win0_0.index t 1 * 2048 + 1 * col.val = col.val; rw [e1]; omega

/-- Step `t`'s block of the second input likewise. -/
theorem block1_at (c : Dev nD) (t : Fin cfg0.N) (ht : t.val < 16) (r : Fin 1024) (col : Fin 2048) :
    (iblk m c 1 t : Vec Ideal S1024x2048 .f32) (ix2 r col) = argP m c (rowOf ⟨t.val, ht⟩ r) col := by
  obtain ⟨-, -, e0, e1⟩ := idx_in t
  unfold iblk argP
  rw [View.read_apply]
  show V m c main_arg1 _ = m (c.tc.loc main_arg1) _
  unfold V
  congr 1
  funext a
  apply Fin.ext
  match a with
  | ⟨0, _⟩ => show win0_1.index t 0 * 1024 + 1 * r.val = t.val * 1024 + r.val; rw [e0]; omega
  | ⟨1, _⟩ => show win0_1.index t 1 * 2048 + 1 * col.val = col.val; rw [e1]; omega

/-- The integrand summed over step `t`'s rows is block `t`'s column sum. -/
theorem block_sum (c : Dev nD) (t : Fin cfg0.N) (col : Fin 2048) :
    (∑ r : Fin 1024, integrandDiv halfW epsW ((iblk m c 0 t : Vec Ideal S1024x2048 .f32) (ix2 r col))
        ((iblk m c 1 t : Vec Ideal S1024x2048 .f32) (ix2 r col))) = colSumN (eDiv m c) t.val col := by
  have ht : t.val < 16 := lt_of_lt_of_eq t.isLt N_0
  rw [colSumN_of_lt _ ht]
  unfold colSum eDiv
  exact Finset.sum_congr rfl fun r _ =>
    congrArg₂ (integrandDiv halfW epsW) (block0_at m c t ht r col) (block1_at m c t ht r col)

/-- First step of a half: the accumulator is the update of the zero row. -/
theorem scr_first (c : Dev nD) (t : Fin cfg0.N) (h0 : t.val % 8 = 0) :
    (outsAt0 m c t.val t.isLt).2 = k0_pay2 (iblk m c 0 t) (iblk m c 1 t) (k0_pay1 (F := Ideal)) := by
  have h1 : ¬t.val % 8 = 7 := by omega
  rw [outsAt0_A m c t h0 h1]
  dsimp only
  exact scratch_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- Any other step: the accumulator is the update of what the step before left. -/
theorem scr_next (c : Dev nD) (t : Fin cfg0.N) (h0 : ¬t.val % 8 = 0) :
    (outsAt0 m c t.val t.isLt).2 = k0_pay2 (iblk m c 0 t) (iblk m c 1 t)
      (outsAt0 m c (t.val - 1) (Nat.lt_of_le_of_lt (Nat.sub_le _ _) t.isLt)).2 := by
  by_cases h1 : t.val % 8 = 7
  · rw [outsAt0_C m c t h0 h1]
    dsimp only
    exact scratch_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    dsimp only
    exact scratch_middle (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- Last step of a half: the output block is the weighted sum of that step's accumulator. -/
theorem out_at (c : Dev nD) (t : Fin cfg0.N) (h7 : t.val % 8 = 7) :
    (outsAt0 m c t.val t.isLt).1 = k0_pay3 (outsAt0 m c t.val t.isLt).2 := by
  have h0 : ¬t.val % 8 = 0 := by omega
  rw [outsAt0_C m c t h0 h7]
  dsimp only
  exact (out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (iblk m c 0 t) (iblk m c 1 t)
      (outsAt0 m c (t.val - 1) (Nat.lt_of_le_of_lt (Nat.sub_le _ _) t.isLt)).2).trans
    (congrArg k0_pay3 (scratch_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (iblk m c 0 t) (iblk m c 1 t)
      (outsAt0 m c (t.val - 1) (Nat.lt_of_le_of_lt (Nat.sub_le _ _) t.isLt)).2).symm)

/-- THE INVARIANT: after step `n` the accumulator at column `col` is the sum over the blocks of `n`'s half up to `n`. -/
theorem acc_eq (c : Dev nD) : ∀ (n : ℕ) (h : n < cfg0.N) (u : Fin 1) (col : Fin 2048),
    (outsAt0 m c n h).2 (ix2 u col) = accUpTo (eDiv m c) n col := by
  intro n
  induction n with
  | zero =>
    intro h u col
    refine (congrFun (scr_first m c ⟨0, h⟩ rfl) (ix2 u col)).trans ?_
    refine (acc_update_at (iblk m c 0 ⟨0, h⟩) (iblk m c 1 ⟨0, h⟩) _ u col).trans ?_
    rw [zero_row_at, zero_add, accUpTo_first _ rfl]
    exact block_sum m c ⟨0, h⟩ col
  | succ n ih =>
    intro h u col
    by_cases h0 : (n + 1) % 8 = 0
    · refine (congrFun (scr_first m c ⟨n + 1, h⟩ h0) (ix2 u col)).trans ?_
      refine (acc_update_at (iblk m c 0 ⟨n + 1, h⟩) (iblk m c 1 ⟨n + 1, h⟩) _ u col).trans ?_
      rw [zero_row_at, zero_add, accUpTo_first _ h0]
      exact block_sum m c ⟨n + 1, h⟩ col
    · refine (congrFun (scr_next m c ⟨n + 1, h⟩ h0) (ix2 u col)).trans ?_
      refine (acc_update_at (iblk m c 0 ⟨n + 1, h⟩) (iblk m c 1 ⟨n + 1, h⟩) _ u col).trans ?_
      rw [accUpTo_next _ h0]
      exact congrArg₂ (· + ·) (ih (Nat.lt_of_succ_lt h) u col) (block_sum m c ⟨n + 1, h⟩ col)

/-- The weighted total of a half, by its last step. -/
def halfTotal (c : Dev nD) (n : ℕ) : EReal := ∑ col : Fin 2048, accUpTo (eDiv m c) n col * ((wt col : ℝ) : EReal)

/-- At the last step `t` of a half the output block holds that half's weighted total at every position. -/
theorem out_eq (c : Dev nD) (t : Fin cfg0.N) (h7 : t.val % 8 = 7) (j : S1x8x128.Idx) :
    (outsAt0 m c t.val t.isLt).1 j = halfTotal m c t.val :=
  (congrFun (out_at m c t h7) j).trans ((out_block_at _ j).trans
    (Finset.sum_congr rfl fun col _ => congrArg (· * ((wt col : ℝ) : EReal)) (acc_eq m c t.val t.isLt (0 : Fin 1) col)))

end Cert.KernelIdeal.KVal

end
-- ==== Proof.KernelRun.lean ====
/-
  The kernel's run, read. The [2, 8, 128] result array has one [1, 8, 128] slab per half; slab `p` is written
  back once, after the last step `8 p + 7` of half `p`, and holds that half's weighted total at every
  position, so the two write-backs cover the array. The lines after the call take entry (0, 0, 0) of each slab,
  add the two and divide by the row count: by the summation law that is the specification's total of the
  quotient-form integrand.
-/
import proofs.«119029_j79130477461938_2_alg».proof.Proof.Accumulate
import Idealize.ShloMosaic.Lib.StableHlo.Run

noncomputable section

namespace Cert.KernelIdeal.KVal

open Cert.KernelIdeal Cert.KernelIdeal.Gen
open Idealize.ShloMosaic Idealize.ShloMosaic.TcCoe Idealize.SL.Sem
open Idealize.ShloMosaic.ValueIdx Cert.Cjs
open Idealize.ShloMosaic.Pipeline (Dat)

variable (m : (ℓ : Loc nD τ sig) → Buf (Elt Ideal) ℓ) (ρ : Dev nD → PrngReg)

/-- What the result array ends holding: half `p`'s weighted total at every position of slab `p`. -/
def outArr (c : Dev nD) : S2x8x128.Idx → Ideal .f32 := fun i => halfTotal m c (8 * (i 0).val + 7)

/-- The output window is at slab `t / 8` at step `t`. -/
theorem idx_out : ∀ t : Fin cfg0.N, win0_2.index t (0 : Fin 3) = t.val / 8 ∧ win0_2.index t (1 : Fin 3) = 0
    ∧ win0_2.index t (2 : Fin 3) = 0 :=
  (by decide +kernel : ∀ t : Fin grid0.N, _)

/-- What a write-back writes is its slab of `outArr`. -/
theorem flushed_eq (c : Dev nD) (t : Fin cfg0.N) (hf : (cfg0.win 2).flush t = true) :
    (dats m 0 c).flushed 2 t = ((cfg0.win 2).blk t).view.read (Elt Ideal) (outArr m c) := by
  have h7 : t.val % 8 = 7 := (flush0_2 t).mp hf
  obtain ⟨e0, -, -⟩ := idx_out t
  show (cfg0.win 2).cut (grid0.coords t) ((dats m 0 c).after 2 t) = _
  rw [after0_2]
  funext j
  show (outsAt0 m c t.val t.isLt).1 j = outArr m c (((cfg0.win 2).blk t).view.emb j)
  refine (out_eq m c t h7 j).trans ?_
  unfold outArr
  refine congrArg (halfTotal m c) ?_
  show t.val = 8 * (win0_2.index t 0 * 1 + 1 * (j 0).val) + 7
  have hj : (j 0).val < 1 := (j 0).isLt
  rw [e0]; omega

/-- An index of the array is in step `t`'s slab iff each coordinate is in the slab's range on its axis. -/
theorem mem_slab (t : Fin cfg0.N) (i : S2x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v0).slice (win0_2.rect t)).set ↔ _
  rw [View.set_slice_whole, Rect.mem_set_unit]
  exact Iff.rfl

/-- Every index is in the slab the last step of its half writes back. -/
theorem covered (i : S2x8x128.Idx) :
    ∃ t : Fin cfg0.N, (cfg0.win 2).flush t = true ∧ i ∈ ((cfg0.win 2).blk t).view.set := by
  have hN : cfg0.N = 16 := N_0
  have h0 : (i 0).val < 2 := (i 0).isLt
  have h1 : (i 1).val < 8 := (i 1).isLt
  have h2 : (i 2).val < 128 := (i 2).isLt
  have ht : 8 * (i 0).val + 7 < cfg0.N := by omega
  obtain ⟨e0, e1, e2⟩ := idx_out ⟨8 * (i 0).val + 7, ht⟩
  refine ⟨⟨8 * (i 0).val + 7, ht⟩, (flush0_2 _).mpr (by show (8 * (i 0).val + 7) % 8 = 7; omega), ?_⟩
  rw [mem_slab]
  intro a
  match a with
  | ⟨0, _⟩ =>
    show win0_2.index ⟨8 * (i 0).val + 7, ht⟩ 0 * 1 ≤ (i 0).val ∧ (i 0).val < win0_2.index ⟨8 * (i 0).val + 7, ht⟩ 0 * 1 + 1
    rw [e0]; show (8 * (i 0).val + 7) / 8 * 1 ≤ (i 0).val ∧ (i 0).val < (8 * (i 0).val + 7) / 8 * 1 + 1; omega
  | ⟨1, _⟩ =>
    show win0_2.index ⟨8 * (i 0).val + 7, ht⟩ 1 * 8 ≤ (i 1).val ∧ (i 1).val < win0_2.index ⟨8 * (i 0).val + 7, ht⟩ 1 * 8 + 8
    rw [e1]; omega
  | ⟨2, _⟩ =>
    show win0_2.index ⟨8 * (i 0).val + 7, ht⟩ 2 * 128 ≤ (i 2).val ∧ (i 2).val < win0_2.index ⟨8 * (i 0).val + 7, ht⟩ 2 * 128 + 128
    rw [e2]; omega

/-- The result array after the call. -/
theorem final_out (c : Dev nD) : (dats m 0 c).arrAt 2 cfg0.N = outArr m c :=
  (dats m 0 c).arrAt_eq_of_cover 2 (outArr m c) (flushed_eq m c) covered

/-- Every coordinate of an index of a [1, 1, 1] array is zero. -/
theorem unit_idx (y : S1x1x1.Idx) : ∀ b : Fin 3, (y b).val = 0
  | ⟨0, _⟩ => Nat.lt_one_iff.mp (y 0).isLt
  | ⟨1, _⟩ => Nat.lt_one_iff.mp (y 1).isLt
  | ⟨2, _⟩ => Nat.lt_one_iff.mp (y 2).isLt

/-- The [1, 1, 1] corner cut out of slab `p` holds half `p`'s weighted total. -/
theorem slab_entry (c : Dev nD) (p : Fin 2) (off : Fin 3 → Nat) (hoff : off = ![p.val, 0, 0])
    (h : S2x8x128.Slices off S1x1x1) (y : S1x1x1.Idx) :
    extractStridedSlice S1x1x1 off (outArr m c) h y = halfTotal m c (8 * p.val + 7) := by
  subst hoff
  refine (extractStridedSlice_apply _ (outArr m c) h y (ix3 p (0 : Fin 8) (0 : Fin 128)) fun a => ?_).trans rfl
  match a with
  | ⟨0, _⟩ => show p.val = p.val + (y 0).val; have := unit_idx y 0; omega
  | ⟨1, _⟩ => show 0 = 0 + (y 1).val; have := unit_idx y 1; omega
  | ⟨2, _⟩ => show 0 = 0 + (y 2).val; have := unit_idx y 2; omega

/-- The lines after the call: the corner of each slab, the two added, divided by the row count — the
    specification's total of the quotient-form integrand, by the summation law. -/
theorem tail_eq (c : Dev nD) :
    Pipeline.afterTail₀ cfgs (dats m) 0 (V0 m) [hostOps1] c main_v6
      = fun _ => total (integrandDiv halfW epsW) (argD m c) (argP m c) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.tc.devRef main_v0)
      = outArr m c :=
    (Pipeline.withArrays_arr spec0 launch0.win.arr_inj c _ _ 2).trans (final_out m c)
  rw [e]
  funext x
  show Ideal.div (extractStridedSlice S1x1x1 ![0, 0, 0] (outArr m c) slices_S2x8x128_S1x1x1_0_0_0 _
      + extractStridedSlice S1x1x1 ![1, 0, 0] (outArr m c) slices_S2x8x128_S1x1x1_1_0_0 _) rowsW = _
  rw [slab_entry m c 0 ![0, 0, 0] rfl, slab_entry m c 1 ![1, 0, 0] rfl]
  show Ideal.div (halfTotal m c 7 + halfTotal m c 15) rowsW = _
  unfold halfTotal total
  rw [weighted_total (eDiv m c) wt wt_nonneg]
  rfl

/-- THE RUN, READ: the result at the specification's total of the quotient-form integrand, the arguments unchanged. -/
theorem run : θ_run defs (onTc (τ := τ) (main (F := Ideal))) ⟨m, fun _ => 0, ρ⟩ fun r => ∀ c : Dev nD,
      r.2.mem ((c.tc : Thread nD τ).loc main_v6) = (fun _ => total (integrandDiv halfW epsW) (argD m c) (argP m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v6 (Pipeline.mem_restRefs_of main_v6 rfl (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KVal

end
-- ==== Proof.RefValue.lean ====
/-
  The reference computes the specification with the difference form of the integrand: read one operation at a
  time, its result is `(0 + Σ over every index of  e · w) / 16384` with `e = ½ (D (log D − log m) + D' (log D' − log m))`,
  `m = ½ ((D + D') + ε)`, and `w` the column weight broadcast over the rows; the sum over the index set is the
  double sum over rows and columns.
-/
import proofs.«119029_j79130477461938_2_alg».proof.Proof.Gen.ReferenceIdeal.Read
import proofs.«119029_j79130477461938_2_alg».proof.Proof.Spec
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.Cjs

/-- The weighted integrand at row `R`, column `c`. -/
theorem weighted_at (x0 x1 : (⟨S16384x2048, .f32⟩ : BufTy).Contents (Elt Ideal)) (R : Fin 16384) (c : Fin 2048) :
    val_main_v21 (F := Ideal) x0 x1 (ix2 R c)
      = integrandSub halfW epsW (x0 (ix2 R c)) (x1 (ix2 R c)) * ((wt c : ℝ) : EReal) := by
  simp only [val_main_v21_apply, val_main_v20_apply, val_main_v19_apply, val_main_v18_apply, val_main_v17_apply,
    val_main_v16_apply, val_main_c_apply, val_main_v15_apply, val_main_v14_apply, val_main_v13_apply,
    val_main_cst_1_apply, val_main_v12_apply, val_main_v11_apply, val_main_v10_apply, val_main_v9_apply,
    val_main_v8_apply, val_main_v7_apply, val_main_v6_apply, val_main_v5_apply, val_main_v4_apply,
    val_main_v3_apply, val_main_cst_0_apply, val_main_v2_apply, val_main_v1_apply, val_main_cst_apply,
    val_main_v0_apply]
  rfl

/-- The reference's result is the specification's total of the difference form. -/
theorem result_eq (x0 x1 : (⟨S16384x2048, .f32⟩ : BufTy).Contents (Elt Ideal)) (i : S_.Idx) :
    val_main_v23 (F := Ideal) x0 x1 i
      = total (integrandSub halfW epsW) (fun R c => x0 (ix2 R c)) (fun R c => x1 (ix2 R c)) := by
  rw [val_main_v23_apply, val_main_v22_apply, val_main_cst_2_apply, val_main_cst_3_apply, sum_idx2]
  simp only [weighted_at]
  show Ideal.div (Ideal.ofBits .f32 0x00000000#32 + _) _ = _
  rw [Ideal.ofBits_zero_f32, zero_add]
  rfl

end Cert.ReferenceIdeal.RefValue

end
-- ==== Proof.PreFacts.lean ====
/-
  What the precondition says of the inputs: it is the conjunction of four `all`s over the entries — each
  entry of either input has absolute value below `+∞`, and each is above zero. So every entry is a positive
  real number: it is above zero, hence not `−∞`, and its absolute value is below `+∞`, hence it is not `+∞`.
-/
import proofs.«119029_j79130477461938_2_alg».proof.Pre_finite_inputs
import Idealize.ShloMosaic.Lib.ReduceAll
import Idealize.ShloMosaic.Lib.ValueIdx
import Idealize.ShloMosaic.Lib.IdealHost
import Idealize.ShloMosaic.PureOps.Ideal.Laws

noncomputable section

namespace Cert.Cjs

open Idealize.ShloMosaic Idealize.ShloMosaic.ValueIdx

instance : Subsingleton Cert.Pre_finite_inputs.S_.Idx := ⟨fun a b => funext fun d => d.elim0⟩

/-- The word `0x7F800000` denotes `+∞`. -/
theorem ofBits_inf : Ideal.ofBits .f32 0x7F800000#32 = ⊤ := by
  simp [Ideal.ofBits, Ideal.ieee]

/-- An extended real above zero whose absolute value is below `+∞` is a positive real. -/
theorem pos_real_of {x : EReal} (hfin : max x (-x) < ⊤) (hpos : 0 < x) : ∃ r : ℝ, 0 < r ∧ x = (r : EReal) := by
  have htop : x ≠ ⊤ := ne_of_lt (lt_of_le_of_lt (le_max_left _ _) hfin)
  have hbot : x ≠ ⊥ := ne_of_gt (lt_of_le_of_lt bot_le hpos)
  refine ⟨x.toReal, ?_, (EReal.coe_toReal htop hbot).symm⟩
  have : (0 : EReal) < (x.toReal : EReal) := by rw [EReal.coe_toReal htop hbot]; exact hpos
  exact_mod_cast this

/-- A comparison that came out 1, read back. -/
theorem lt_of_cmp_olt {x y : EReal} (h : Ideal.cmp .olt x y = 1#1) : x < y := by
  unfold Ideal.cmp at h
  by_contra hn
  simp [hn] at h
theorem gt_of_cmp_ogt {x y : EReal} (h : Ideal.cmp .ogt x y = 1#1) : y < x := by
  unfold Ideal.cmp at h
  by_contra hn
  simp [hn] at h

/-- Under the precondition every entry of both inputs is a positive real. -/
theorem pos_of_pre [hP : Cert.Pre_finite_inputs.Facts] (x0 x1 : FVec Ideal Cert.Pre_finite_inputs.S16384x2048 .f32)
    (h : Cert.Pre_finite_inputs.fn (F := Ideal) x0 x1 = fun _ => 1#1) :
    (∀ i, ∃ r : ℝ, 0 < r ∧ x0 i = (r : EReal)) ∧ (∀ i, ∃ r : ℝ, 0 < r ∧ x1 i = (r : EReal)) := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_⟩
  · have f := Host.reduce_andi_all _ _ _ _ _ h1 i
    have p := Host.reduce_andi_all _ _ _ _ _ h3 i
    refine pos_real_of ?_ ?_
    · have := lt_of_cmp_olt f
      rwa [show (broadcastInDim Cert.Pre_finite_inputs.S16384x2048 ![] _ (constant (F := Ideal) Cert.Pre_finite_inputs.S_ .f32 0x7F800000#32)) i = ⊤ from ofBits_inf] at this
    · have := gt_of_cmp_ogt p
      rwa [show (broadcastInDim Cert.Pre_finite_inputs.S16384x2048 ![] _ (constant (F := Ideal) Cert.Pre_finite_inputs.S_ .f32 0x00000000#32)) i = 0 from Ideal.ofBits_zero_f32] at this
  · have f := Host.reduce_andi_all _ _ _ _ _ h2 i
    have p := Host.reduce_andi_all _ _ _ _ _ h4 i
    refine pos_real_of ?_ ?_
    · have := lt_of_cmp_olt f
      rwa [show (broadcastInDim Cert.Pre_finite_inputs.S16384x2048 ![] _ (constant (F := Ideal) Cert.Pre_finite_inputs.S_ .f32 0x7F800000#32)) i = ⊤ from ofBits_inf] at this
    · have := gt_of_cmp_ogt p
      rwa [show (broadcastInDim Cert.Pre_finite_inputs.S16384x2048 ![] _ (constant (F := Ideal) Cert.Pre_finite_inputs.S_ .f32 0x00000000#32)) i = 0 from Ideal.ofBits_zero_f32] at this

end Cert.Cjs

end
-- ==== Proof.lean ====
/-
  A weighted Jensen–Shannon-type loss over two 16384 × 2048 arrays `D`, `D'` of positive reals: with
  `m = ½ ((D + D') + ε)` entrywise, the integrand `e = ½ (D · log (D / m) + D' · log (D' / m))` is weighted by
  the column weight `2048 − c`, summed over all rows and columns, and divided by the row count 16384.

  The kernel walks the rows in sixteen blocks of 1024, eight per half; it keeps a running row of column sums of
  `e` (reset at the first block of a half), and after the last block of a half multiplies that row by the
  weights and sums it into one number; the two numbers are added and divided by 16384. The reference writes
  the integrand with `log D − log m` in place of `log (D / m)`, multiplies by the weight entry by entry and sums
  everything at once.

  On the extended reals the two integrands agree exactly where the entries are positive reals (then `m` is a
  positive real and `log (x / m) = log x − log m`); the statement's precondition says the entries are finite
  and above zero. The rearrangement of the sum needs no finiteness: addition is commutative and associative
  on the extended reals, and each weight is a non-negative real, which distributes over any sum.

  The three frames are the generated ones (the reference's is its generated run with the result dropped); the
  ideal pass rewrote nothing, so the second-to-last conjunct is `True`.
-/
import proofs.«119029_j79130477461938_2_alg».proof.Defs
import proofs.«119029_j79130477461938_2_alg».proof.Proof.Gen.Kernel
import proofs.«119029_j79130477461938_2_alg».proof.Proof.Gen.Kernel.Skeleton
import proofs.«119029_j79130477461938_2_alg».proof.Proof.Gen.Kernel.Launch
import proofs.«119029_j79130477461938_2_alg».proof.Proof.Gen.Kernel.Points
import proofs.«119029_j79130477461938_2_alg».proof.Proof.Gen.Kernel.Frame
import proofs.«119029_j79130477461938_2_alg».proof.Proof.Gen.KernelIdeal
import proofs.«119029_j79130477461938_2_alg».proof.Proof.Gen.KernelIdeal.Skeleton
import proofs.«119029_j79130477461938_2_alg».proof.Proof.Gen.KernelIdeal.Launch
import proofs.«119029_j79130477461938_2_alg».proof.Proof.Gen.KernelIdeal.Points
import proofs.«119029_j79130477461938_2_alg».proof.Proof.Gen.KernelIdeal.Frame
import proofs.«119029_j79130477461938_2_alg».proof.Proof.Gen.ReferenceIdeal
import proofs.«119029_j79130477461938_2_alg».proof.Proof.Gen.ReferenceIdeal.Run
import proofs.«119029_j79130477461938_2_alg».proof.Proof.Gen.ReferenceIdeal.Read
import proofs.«119029_j79130477461938_2_alg».proof.Proof.Gen.Pre_finite_inputs
import proofs.«119029_j79130477461938_2_alg».proof.Proof.KernelRun
import proofs.«119029_j79130477461938_2_alg».proof.Proof.RefValue
import proofs.«119029_j79130477461938_2_alg».proof.Proof.PreFacts
import Idealize.ShloMosaic.Adequacy
import Idealize.ShloMosaic.Init

noncomputable section

namespace Cert.Proof

open Idealize.ShloMosaic Idealize.ShloMosaic.TcCoe Idealize.SL.Sem
open Idealize.ShloMosaic.ValueIdx Cert.Cjs

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- And the reference: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the specification's total: the kernel at the quotient form's, the reference at the
    difference form's, and under the precondition (entries positive reals) those are one number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => total (integrandDiv halfW epsW) (Cert.KernelIdeal.KVal.argD m c) (Cert.KernelIdeal.KVal.argP m c),
    Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2]
  funext i
  rw [Cert.ReferenceIdeal.RefValue.result_eq]
  obtain ⟨hX, hY⟩ := pos_of_pre _ _ (hpre c)
  exact (total_div_eq_sub _ _ (fun R col => hX (ix2 R col)) (fun R col => hY (ix2 R col))).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
